-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S100000 : S_.BroadcastsInDim S100000 (![] : Fin 0 → Fin S100000.rank)
  reducesTo_S100000_S_d0 : S100000.ReducesTo [0] S_
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  bcast_S640000_S640000x1_0 : S640000.BroadcastsInDim S640000x1 (![0] : Fin 1 → Fin S640000x1.rank)
  reducesTo_S640000_S_d0 : S640000.ReducesTo [0] S_
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]

variable [Facts]

def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def fn_part2 {F : FTy → Type} [FloatOps F] (main_arg3 : IVec S640000 32) (main_arg4 : FVec F S100000 .f32) (main_arg5 : FVec F S50000 .f32) (main_v28 : IVec S_ 1) (main_v33 : IVec S640000 32) : IVec S_ 1 :=
  let main_v34 : IVec S640000x1 32 := broadcastInDim S640000x1 ![0] bcast_S640000_S640000x1_0 main_v33
  let main_v35 : FVec F S640000 .f32 := (fun x i => Host.gather gather_S100000_S640000x1_S640000_n_0_n_n_0_1_1 x i) main_arg4 main_v34
  let main_c_12 : IVec S_ 32 := constantI S_ 32 0#32
  let main_v36 : IVec S640000 32 := broadcastInDim S640000 ![] bcast_S_S640000 main_c_12
  let main_v37 : IVec S640000 1 := cmpi .slt main_arg3 main_v36
  let main_c_13 : IVec S_ 32 := constantI S_ 32 50000#32
  let main_v38 : IVec S640000 32 := broadcastInDim S640000 ![] bcast_S_S640000 main_c_13
  let main_v39 : IVec S640000 32 := addi main_arg3 main_v38
  let main_v40 : IVec S640000 32 := select main_v37 main_v39 main_arg3
  let main_v41 : IVec S640000x1 32 := broadcastInDim S640000x1 ![0] bcast_S640000_S640000x1_0 main_v40
  let main_v42 : FVec F S640000 .f32 := (fun x i => Host.gather gather_S50000_S640000x1_S640000_n_0_n_n_0_1_1 x i) main_arg5 main_v41
  let main_v43 : FVec F S640000 .f32 := mulf main_v35 main_v42
  let main_cst_14 : FVec F S_ .f32 := constant S_ .f32 0x322BCC77#32
  let main_v44 : FVec F S640000 .f32 := broadcastInDim S640000 ![] bcast_S_S640000 main_cst_14
  let main_v45 : FVec F S640000 .f32 := addf main_v43 main_v44
  let main_cst_15 : FVec F S_ .f32 := constant S_ .f32 0x00000000#32
  let main_v46 : FVec F S640000 .f32 := broadcastInDim S640000 ![] bcast_S_S640000 main_cst_15
  let main_v47 : IVec S640000 1 := cmpf .oge main_v45 main_v46
  let main_c_16 : IVec S_ 1 := constantI S_ 1 1#1
  let main_v48 : IVec S_ 1 := (fun x v => Host.reduce IntOp.andi x v reducesTo_S640000_S_d0 h_S_) main_v47 main_c_16
  let main_v49 : IVec S_ 1 := andi main_v28 main_v48
  main_v49

def fn_part1 {F : FTy → Type} [FloatOps F] (main_arg2 : IVec S640000 32) (main_arg3 : IVec S640000 32) (main_arg4 : FVec F S100000 .f32) (main_arg5 : FVec F S50000 .f32) (main_arg6 : FVec F S128x128 .f32) (main_arg7 : FVec F S128x128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .slt main_arg2 main_v29
  let main_c_11 : IVec S_ 32 := constantI S_ 32 100000#32
  let main_v31 : IVec S640000 32 := broadcastInDim S640000 ![] bcast_S_S640000 main_c_11
  let main_v32 : IVec S640000 32 := addi main_arg2 main_v31
  let main_v33 : IVec S640000 32 := select main_v30 main_v32 main_arg2
  fn_part2 (F := F) main_arg3 main_arg4 main_arg5 main_v28 main_v33

def fn {F : FTy → Type} [FloatOps F] (main_arg0 : FVec F S100000x128 .f32) (main_arg1 : FVec F S50000x128 .f32) (main_arg2 : IVec S640000 32) (main_arg3 : IVec S640000 32) (main_arg4 : FVec F S100000 .f32) (main_arg5 : FVec F S50000 .f32) (main_arg6 : FVec F S128x128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000 .f32 := Host.absf main_arg4
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S50000 .f32 := Host.absf main_arg5
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg3 main_arg4 main_arg5 main_arg6 main_arg7 main_v13 main_v16
-- ==== Kernel.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S4000x128 : Shape := ⟨2, ![4000, 128]⟩
abbrev S4000x1 : Shape := ⟨2, ![4000, 1]⟩
abbrev S5000x128 : Shape := ⟨2, ![5000, 128]⟩

abbrev nBuf : Space → Nat
  | .hbm => 66
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S100000, .f32⟩
  | .hbm, ⟨5, _⟩ => ⟨S50000, .f32⟩
  | .hbm, ⟨6, _⟩ => ⟨S128x128, .f32⟩
  | .hbm, ⟨7, _⟩ => ⟨S128x128, .f32⟩
  | .hbm, ⟨8, _⟩ => ⟨S100000x128, .bf16⟩
  | .hbm, ⟨9, _⟩ => ⟨S50000x128, .bf16⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .bf16⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .bf16⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000, .f32⟩
  | .hbm, ⟨46, _⟩ => ⟨S640000, .f32⟩
  | .hbm, ⟨47, _⟩ => ⟨S640000x1, .f32⟩
  | .hbm, ⟨48, _⟩ => ⟨S128x128, .f32⟩
  | .hbm, ⟨49, _⟩ => ⟨S128x128, .bf16⟩
  | .hbm, ⟨50, _⟩ => ⟨S128x128, .f32⟩
  | .hbm, ⟨51, _⟩ => ⟨S128x128, .bf16⟩
  | .hbm, ⟨52, _⟩ => ⟨S640000x128, .bf16⟩
  | .hbm, ⟨53, _⟩ => ⟨S640000x128, .bf16⟩
  | .hbm, ⟨54, _⟩ => ⟨S640000x128, .f32⟩
  | .hbm, ⟨55, _⟩ => ⟨S_, .f32⟩
  | .hbm, ⟨56, _⟩ => ⟨S100000x128, .f32⟩
  | .hbm, ⟨57, _⟩ => ⟨S640000x1, .i32⟩
  | .hbm, ⟨58, _⟩ => ⟨S100000x128, .f32⟩
  | .hbm, ⟨59, _⟩ => ⟨S640000x128, .f32⟩
  | .hbm, ⟨60, _⟩ => ⟨S_, .f32⟩
  | .hbm, ⟨61, _⟩ => ⟨S50000x128, .f32⟩
  | .hbm, ⟨62, _⟩ => ⟨S640000x1, .i32⟩
  | .hbm, ⟨63, _⟩ => ⟨S50000x128, .f32⟩
  | .hbm, ⟨64, _⟩ => ⟨S100000x128, .f32⟩
  | .hbm, ⟨65, _⟩ => ⟨S50000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S4000x128, .bf16⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S100000x128_S640000x1_S640000x128_1_0_n_n_0_1_1128_wf : GatherDims.WF S100000x128 S640000x1 S640000x128 [1] [0] [] [0] [] 1 ![1, 128]
  gather_S50000x128_S640000x1_S640000x128_1_0_n_n_0_1_1128_wf : GatherDims.WF S50000x128 S640000x1 S640000x128 [1] [0] [] [0] [] 1 ![1, 128]
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]
  dot_S4000x128_S128x128_S4000x128_1_0_0_1_n_n_wf : DotDims.WF S4000x128 S128x128 S4000x128 [1] [0] [0] [1] [] []
  scatter_S100000x128_S640000x1_S640000x128_1_0_0_1_wf : ScatterDims.WF S100000x128 S640000x1 S640000x128 [1] [0] [0] 1
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S640000x1.size a
  hwx0_2 : ∀ i : grid0.Coords, EltTy.bits .f32 = 32 ∨ (Rect.block (s := S640000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S640000x128.size a
  hwx0_5 : ∀ i : grid0.Coords, EltTy.bits .bf16 = 32 ∨ (Rect.block (s := S640000x128) S4000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S640000x128.size a
  hwx0_6 : ∀ i : grid0.Coords, EltTy.bits .bf16 = 32 ∨ (Rect.block (s := S640000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v8) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S640000 : Shape := ⟨1, ![640000]⟩
abbrev S100000 : Shape := ⟨1, ![100000]⟩
abbrev S50000 : Shape := ⟨1, ![50000]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S640000, .i32⟩
  | .hbm, ⟨3, _⟩ => ⟨S640000, .i32⟩
  | .hbm, ⟨4, _⟩ => ⟨S100000, .f32⟩
  | .hbm, ⟨5, _⟩ => ⟨S50000, .f32⟩
  | .hbm, ⟨6, _⟩ => ⟨S128x128, .f32⟩
  | .hbm, ⟨7, _⟩ => ⟨S128x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000, .f32⟩
  | .hbm, ⟨45, _⟩ => ⟨S640000, .f32⟩
  | .hbm, ⟨46, _⟩ => ⟨S_, .f32⟩
  | .hbm, ⟨47, _⟩ => ⟨S640000, .f32⟩
  | .hbm, ⟨48, _⟩ => ⟨S640000, .f32⟩
  | .hbm, ⟨49, _⟩ => ⟨S640000, .f32⟩
  | .hbm, ⟨50, _⟩ => ⟨S_, .f32⟩
  | .hbm, ⟨51, _⟩ => ⟨S640000, .f32⟩
  | .hbm, ⟨52, _⟩ => ⟨S640000, .f32⟩
  | .hbm, ⟨53, _⟩ => ⟨S128x128, .f32⟩
  | .hbm, ⟨54, _⟩ => ⟨S640000x128, .f32⟩
  | .hbm, ⟨55, _⟩ => ⟨S128x128, .f32⟩
  | .hbm, ⟨56, _⟩ => ⟨S640000x128, .f32⟩
  | .hbm, ⟨57, _⟩ => ⟨S640000x128, .f32⟩
  | .hbm, ⟨58, _⟩ => ⟨S640000x1, .f32⟩
  | .hbm, ⟨59, _⟩ => ⟨S640000x128, .f32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S128x128, .f32⟩
  | .hbm, ⟨66, _⟩ => ⟨S640000x128, .f32⟩
  | .hbm, ⟨67, _⟩ => ⟨S128x128, .f32⟩
  | .hbm, ⟨68, _⟩ => ⟨S640000x128, .f32⟩
  | .hbm, ⟨69, _⟩ => ⟨S640000x128, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S50000x128, .f32⟩
  | .hbm, ⟨75, _⟩ => ⟨S640000x1, .i32⟩
  | .hbm, ⟨76, _⟩ => ⟨S50000x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .i1⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S128x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .i1⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S50000x128 : S_.BroadcastsInDim S50000x128 (![] : Fin 0 → Fin S50000x128.rank)
  gather_S100000x128_S640000x1_S640000x128_1_0_n_n_0_1_1128_wf : GatherDims.WF S100000x128 S640000x1 S640000x128 [1] [0] [] [0] [] 1 ![1, 128]
  gather_S50000x128_S640000x1_S640000x128_1_0_n_n_0_1_1128_wf : GatherDims.WF S50000x128 S640000x1 S640000x128 [1] [0] [] [0] [] 1 ![1, 128]
  gather_S100000_S640000x1_S640000_n_0_n_n_0_1_1_wf : GatherDims.WF S100000 S640000x1 S640000 [] [0] [] [0] [] 1 ![1]
  gather_S50000_S640000x1_S640000_n_0_n_n_0_1_1_wf : GatherDims.WF S50000 S640000x1 S640000 [] [0] [] [0] [] 1 ![1]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  scatter_S50000x128_S640000x1_S640000x128_1_0_0_1_wf : ScatterDims.WF S50000x128 S640000x1 S640000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its two results named.

  The program is five segments: the host operations before the edge launch, the edge launch, the host operations
  between it and the two update launches, and the two update launches. Every weakly fair execution terminates
  with every buffer that is not scoped to a launch holding the contents of the last segment boundary; read at the
  two result buffers and at the eight arguments, that is the statement below.
-/
import proofs.«143865_j13778255086103_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the last boundary's contents
    and the arguments as launched. -/
theorem run_last : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Hand

end
-- ==== Proof.LibDotRows.lean ====
/-
  Two matrix products read at an index over the extended reals, as plain finite sums, for any extents.

  * a matrix product of an [M, K] operand with a [K, N] operand into the all-zero accumulator, at (r, c), is
    ∑ k, l (r, k) · w (k, c);
  * a host contraction of the LAST axis of an [A, B, K] operand with the FIRST axis of a [K, N] operand, at
    (a, b, c), is ∑ k, l (a, b, k) · w (k, c).

  The dimension record of a printed program enters only through one-line coordinate facts (which coordinate of
  the result, or of the contraction position, each operand coordinate is): for a record with literal axis lists
  each is `by unfold DotDims.lhsIdx; rw [dif_neg (by decide), dif_pos (by decide)]; rfl` or
  `D.lhsIdx_val_of_single rfl j q`.
-/
import Idealize.ShloMosaic.PureOps.Ideal.Laws
import Idealize.ShloMosaic.Lib.ValueIdx

noncomputable section

namespace Cert.LibDotRows

open Idealize.ShloMosaic Idealize.ShloMosaic.ValueIdx

/-- [M, K] · [K, N] into the zero accumulator, at (r, c): the sum over the shared axis. -/
theorem matmul_zero_ix2 {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (l : FVec Ideal ⟨2, ![M, K]⟩ φ₁) (w : FVec Ideal ⟨2, ![K, N]⟩ φ₂) (r : Fin M) (c : Fin N) :
    matmul D prec l w (constant ⟨2, ![M, N]⟩ .f32 0x00000000#32) (ix2 r c) = ∑ k : Fin K, l (ix2 r k) * w (ix2 k c) := by
  refine (Ideal.matmul_constant_zero_apply D prec l w (ix2 r c)).trans ?_
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The host's contraction [A, B, K] · [K, N] over the shared axis, at (a, b, c). -/
theorem dotGeneral_ix3 {A B K N : Nat} {φ₁ φ₂ : FTy}
    (D : DotDims ⟨3, ![A, B, K]⟩ ⟨2, ![K, N]⟩ ⟨3, ![A, B, N]⟩) (prec : Option ContractPrecision)
    (hr : D.contr.rank = 1) (hs : D.contr.size ⟨0, by omega⟩ = K)
    (hl0 : ∀ (j : (⟨3, ![A, B, N]⟩ : Shape).Idx) (q : D.contr.Idx), (D.lhsIdx j q (0 : Fin 3)).val = (j (0 : Fin 3)).val)
    (hl1 : ∀ (j : (⟨3, ![A, B, N]⟩ : Shape).Idx) (q : D.contr.Idx), (D.lhsIdx j q (1 : Fin 3)).val = (j (1 : Fin 3)).val)
    (hl2 : ∀ (j : (⟨3, ![A, B, N]⟩ : Shape).Idx) (q : D.contr.Idx), (D.lhsIdx j q (2 : Fin 3)).val = (q ⟨0, by omega⟩).val)
    (hr0 : ∀ (j : (⟨3, ![A, B, N]⟩ : Shape).Idx) (q : D.contr.Idx), (D.rhsIdx j q (0 : Fin 2)).val = (q ⟨0, by omega⟩).val)
    (hr1 : ∀ (j : (⟨3, ![A, B, N]⟩ : Shape).Idx) (q : D.contr.Idx), (D.rhsIdx j q (1 : Fin 2)).val = (j (2 : Fin 3)).val)
    (l : FVec Ideal ⟨3, ![A, B, K]⟩ φ₁) (w : FVec Ideal ⟨2, ![K, N]⟩ φ₂) (a : Fin A) (b : Fin B) (c : Fin N) :
    Host.dotGeneral D prec l w (ix3 a b c) = ∑ k : Fin K, l (ix3 a b k) * w (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 a b c) ((contrEquiv1 D K hr hs).symm k) = ix3 a b k := funext fun x => Fin.ext (by
    match x with
    | ⟨0, _⟩ => exact hl0 _ _
    | ⟨1, _⟩ => exact hl1 _ _
    | ⟨2, _⟩ => exact (hl2 _ _).trans hk)
  have er : D.rhsIdx (ix3 a b c) ((contrEquiv1 D K hr hs).symm k) = ix2 k c := funext fun x => Fin.ext (by
    match x with
    | ⟨0, _⟩ => exact (hr0 _ _).trans hk
    | ⟨1, _⟩ => exact hr1 _ _)
  rw [el, er]

end Cert.LibDotRows

end
-- ==== Proof.LibKeepdims.lean ====
/-
  Column forms of the keepdims layout operations, read at an index given by coordinates.

  A reduction over the lanes of a rank-2 value leaves a vector of length `a`; a kernel then re-lays it as a column
  `[a, 1]` (a shape cast) and spreads the column over `b` lanes (a broadcast). Element `(i, j)` of the spread
  column is element `i` of the vector, whatever `j` is. The row forms (`[a] → [1, a]`, `[1, b] → [a, b]`) are in
  the library (Lib/ValueLayout.lean); these are their transposed counterparts, in the same style: the parent lemma of
  Lib/Pipeline/Value.lean with both indices written `ixN …`.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- A vector re-laid as a column: element `(i, u)` of the `[a, 1]` column is element `i` of the vector (the only
    value of the unit coordinate `u` is `0`, so the two row-major positions agree). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column re-laid as a vector: element `i` of the vector is element `(i, 0)` of the `[a, 1]` column. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- ONE COLUMN BROADCAST over many lanes: element `(i, j)` of the `[a, b]` result is element `(i, 0)` of the column. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Body0.lean ====
/-
  What the edge kernel's body stores, read at one element.

  At a grid point the body holds a block of 4000 edges: the two gathered endpoint rows u, v (4000 × 128 each), the
  column d of degree products (4000 × 1) and the two transposed weight matrices w1, w2 (128 × 128). Row r, lane j of
  the two stored blocks is

      ( ∑ₖ p(r,k) · w1(k,j)  +  ∑ₖ (u(r,k) · v(r,k)) · w2(k,j) ) · rsqrt( d(r,0) + ε )

  with p = v for the message into the first node set and p = u for the message into the second. The changes of
  float format in the body are the identity on the extended reals, each matrix product into the zero accumulator is
  the plain sum over the shared axis, and the column of scales is spread over the 128 lanes.
-/
import proofs.«143865_j13778255086103_2_alg».proof.Proof.Gen.KernelIdeal.Skeleton
import proofs.«143865_j13778255086103_2_alg».proof.Proof.LibDotRows
import proofs.«143865_j13778255086103_2_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The printed contraction record of the 4000 × 128 by 128 × 128 products. -/
abbrev D4 := dot_S4000x128_S128x128_S4000x128_1_0_0_1_n_n

theorem D4_l0 (j : S4000x128.Idx) (q : D4.contr.Idx) : (D4.lhsIdx j q (0 : Fin 2)).val = (j (0 : Fin 2)).val := by
  unfold DotDims.lhsIdx
  rw [dif_neg (show ¬(0 : Fin S4000x128.rank) ∈ D4.lhsBatch by decide), dif_pos (show (0 : Fin S4000x128.rank) ∈ D4.lhsNonContracting by decide)]
  rfl
theorem D4_l1 (j : S4000x128.Idx) (q : D4.contr.Idx) : (D4.lhsIdx j q (1 : Fin 2)).val = (q ⟨0, by decide⟩).val :=
  D4.lhsIdx_val_of_single rfl j q
theorem D4_r0 (j : S4000x128.Idx) (q : D4.contr.Idx) : (D4.rhsIdx j q (0 : Fin 2)).val = (q ⟨0, by decide⟩).val :=
  D4.rhsIdx_val_of_single rfl j q
theorem D4_r1 (j : S4000x128.Idx) (q : D4.contr.Idx) : (D4.rhsIdx j q (1 : Fin 2)).val = (j (1 : Fin 2)).val := by
  unfold DotDims.rhsIdx
  rw [dif_neg (show ¬(1 : Fin S128x128.rank) ∈ D4.rhsBatch by decide), dif_pos (show (1 : Fin S128x128.rank) ∈ D4.rhsNonContracting by decide)]
  rfl

/-- A product of a 4000 × 128 block with a 128 × 128 matrix into the zero accumulator, at (r, j). -/
theorem matmul4_apply (l : FVec Ideal S4000x128 .bf16) (w : FVec Ideal S128x128 .bf16) (r : Fin 4000) (j : Fin 128) :
    matmul D4 none l w (constant S4000x128 .f32 0x00000000#32) (ix2 r j) = ∑ k : Fin 128, l (ix2 r k) * w (ix2 k j) :=
  Cert.LibDotRows.matmul_zero_ix2 D4 none rfl rfl D4_l0 D4_l1 D4_r0 D4_r1 l w r j

/-- One edge's message at one lane, from the edge's rows: p is the row that meets w1, u and v the two rows whose
    product meets w2, d the degree product. -/
def edgeAt (p u v : Fin 128 → EReal) (d : EReal) (w1 w2 : Fin 128 → EReal) : EReal :=
  ((∑ k : Fin 128, p k * w1 k) + (∑ k : Fin 128, (u k * v k) * w2 k)) * Ideal.rsqrt (d + Ideal.ofBits .f32 0x322BCC77#32)

/-- The scale column spread over the lanes, at (r, j): the reciprocal square root of the row's degree product plus ε. -/
theorem scale_apply (x2 : Vec Ideal S4000x1 .f32) (r : Fin 4000) (j : Fin 128) :
    broadcastTo S4000x128 (k0_pay3 (F := Ideal) x2) broadcasts_S4000x1_S4000x128 (ix2 r j)
      = Ideal.rsqrt (x2 (ix2 r (0 : Fin 1)) + Ideal.ofBits .f32 0x322BCC77#32) := by
  refine (Cert.LibKeepdims.broadcastTo_a1_ab_apply (k0_pay3 (F := Ideal) x2) broadcasts_S4000x1_S4000x128 r j).trans ?_
  unfold k0_pay3
  simp only [shapeCast_self]
  rfl

/-- The shared product of the element-wise product u · v with w2, at (r, j). -/
theorem pay5_apply (x0 x1 : Vec Ideal S4000x128 .bf16) (x4 : Vec Ideal S128x128 .bf16) (r : Fin 4000) (j : Fin 128) :
    k0_pay5 (F := Ideal) x0 x1 x4 (ix2 r j) = ∑ k : Fin 128, (x0 (ix2 r k) * x1 (ix2 r k)) * x4 (ix2 k j) := by
  unfold k0_pay5 k0_pay1 k0_pay2
  simp only [shapeCast_self]
  exact matmul4_apply _ x4 r j

/-- The block stored for the first node set (the row of v meets w1), at (r, j). -/
theorem pay6_apply (x0 x1 : Vec Ideal S4000x128 .bf16) (x2 : Vec Ideal S4000x1 .f32) (x3 x4 : Vec Ideal S128x128 .bf16)
    (r : Fin 4000) (j : Fin 128) :
    k0_pay6 (F := Ideal) x0 x1 x2 x3 x4 (ix2 r j)
      = edgeAt (fun k => x1 (ix2 r k)) (fun k => x0 (ix2 r k)) (fun k => x1 (ix2 r k)) (x2 (ix2 r (0 : Fin 1)))
          (fun k => x3 (ix2 k j)) (fun k => x4 (ix2 k j)) := by
  unfold k0_pay6 k0_pay4 k0_pay2
  simp only [shapeCast_self]
  show (matmul D4 none x1 x3 (constant S4000x128 .f32 0x00000000#32) (ix2 r j) + k0_pay5 (F := Ideal) x0 x1 x4 (ix2 r j))
      * broadcastTo S4000x128 (k0_pay3 (F := Ideal) x2) broadcasts_S4000x1_S4000x128 (ix2 r j) = _
  rw [matmul4_apply, pay5_apply, scale_apply]
  rfl

/-- The block stored for the second node set (the row of u meets w1), at (r, j). -/
theorem pay7_apply (x0 x1 : Vec Ideal S4000x128 .bf16) (x2 : Vec Ideal S4000x1 .f32) (x3 x4 : Vec Ideal S128x128 .bf16)
    (r : Fin 4000) (j : Fin 128) :
    k0_pay7 (F := Ideal) x0 x1 x2 x3 x4 (ix2 r j)
      = edgeAt (fun k => x0 (ix2 r k)) (fun k => x0 (ix2 r k)) (fun k => x1 (ix2 r k)) (x2 (ix2 r (0 : Fin 1)))
          (fun k => x3 (ix2 k j)) (fun k => x4 (ix2 k j)) := by
  unfold k0_pay7 k0_pay4 k0_pay1
  simp only [shapeCast_self]
  show (matmul D4 none x0 x3 (constant S4000x128 .f32 0x00000000#32) (ix2 r j) + k0_pay5 (F := Ideal) x0 x1 x4 (ix2 r j))
      * broadcastTo S4000x128 (k0_pay3 (F := Ideal) x2) broadcasts_S4000x1_S4000x128 (ix2 r j) = _
  rw [matmul4_apply, pay5_apply, scale_apply]
  rfl

end Cert.KernelIdeal.Hand

end
-- ==== Proof.Body1.lean ====
/-
  What the node-update kernel's body stores, read at one element.

  At a grid point the body holds a block of 5000 node rows x (5000 × 128), the same rows of the summed messages
  msg (5000 × 128) and the transposed weight matrix w (128 × 128). Row r, lane j of the stored block is the leaky
  rectifier of

      pre = ∑ₖ x(r,k) · w(k,j) + msg(r,j) :    pre where pre ≥ 0, and 0.1 · pre elsewhere

  (0.1 standing for its single-precision word). The two launches of this kernel, one per node set, have the same body.
-/
import proofs.«143865_j13778255086103_2_alg».proof.Proof.Gen.KernelIdeal.Skeleton
import proofs.«143865_j13778255086103_2_alg».proof.Proof.LibDotRows
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The printed contraction record of the 5000 × 128 by 128 × 128 product. -/
abbrev D5 := dot_S5000x128_S128x128_S5000x128_1_0_0_1_n_n

theorem D5_l0 (j : S5000x128.Idx) (q : D5.contr.Idx) : (D5.lhsIdx j q (0 : Fin 2)).val = (j (0 : Fin 2)).val := by
  unfold DotDims.lhsIdx
  rw [dif_neg (show ¬(0 : Fin S5000x128.rank) ∈ D5.lhsBatch by decide), dif_pos (show (0 : Fin S5000x128.rank) ∈ D5.lhsNonContracting by decide)]
  rfl
theorem D5_l1 (j : S5000x128.Idx) (q : D5.contr.Idx) : (D5.lhsIdx j q (1 : Fin 2)).val = (q ⟨0, by decide⟩).val :=
  D5.lhsIdx_val_of_single rfl j q
theorem D5_r0 (j : S5000x128.Idx) (q : D5.contr.Idx) : (D5.rhsIdx j q (0 : Fin 2)).val = (q ⟨0, by decide⟩).val :=
  D5.rhsIdx_val_of_single rfl j q
theorem D5_r1 (j : S5000x128.Idx) (q : D5.contr.Idx) : (D5.rhsIdx j q (1 : Fin 2)).val = (j (1 : Fin 2)).val := by
  unfold DotDims.rhsIdx
  rw [dif_neg (show ¬(1 : Fin S128x128.rank) ∈ D5.rhsBatch by decide), dif_pos (show (1 : Fin S128x128.rank) ∈ D5.rhsNonContracting by decide)]
  rfl

/-- A product of a 5000 × 128 block with a 128 × 128 matrix into the zero accumulator, at (r, j). -/
theorem matmul5_apply (l : FVec Ideal S5000x128 .bf16) (w : FVec Ideal S128x128 .bf16) (r : Fin 5000) (j : Fin 128) :
    matmul D5 none l w (constant S5000x128 .f32 0x00000000#32) (ix2 r j) = ∑ k : Fin 128, l (ix2 r k) * w (ix2 k j) :=
  Cert.LibDotRows.matmul_zero_ix2 D5 none rfl rfl D5_l0 D5_l1 D5_r0 D5_r1 l w r j

/-- The leaky rectifier as both programs spell it: a comparison with the word of zero selects between the value
    and its product with the word of 0.1. -/
def leaky (pre : EReal) : EReal :=
  Scalar.select (FloatOps.cmpf (F := Ideal) (φ := .f32) .oge pre (Ideal.ofBits .f32 0x00000000#32)) pre
    (Ideal.ofBits .f32 0x3DCCCCCD#32 * pre)

/-- One node's new value at one lane, from the node's row x, the weight column w and the summed message. -/
def updAt (x w : Fin 128 → EReal) (msg : EReal) : EReal := leaky ((∑ k : Fin 128, x k * w k) + msg)

/-- The stored block of the update over the first node set, at (r, j). -/
theorem upd1_apply (x0 : Vec Ideal S5000x128 .f32) (x2 : Vec Ideal S128x128 .bf16) (x5 : Vec Ideal S5000x128 .f32)
    (r : Fin 5000) (j : Fin 128) :
    k1_pay1 (F := Ideal) x0 x2 x5 (ix2 r j) = updAt (fun k => x0 (ix2 r k)) (fun k => x2 (ix2 k j)) (x5 (ix2 r j)) := by
  unfold k1_pay1
  simp only [shapeCast_self]
  rw [select_apply, cmpf_apply, mulf_apply, addf_apply, broadcast_apply, broadcast_apply, matmul5_apply]
  rfl

/-- The second launch stores the same function of its blocks. -/
theorem upd2_apply (x0 : Vec Ideal S5000x128 .f32) (x2 : Vec Ideal S128x128 .bf16) (x5 : Vec Ideal S5000x128 .f32)
    (r : Fin 5000) (j : Fin 128) :
    k2_pay1 (F := Ideal) x0 x2 x5 (ix2 r j) = updAt (fun k => x0 (ix2 r k)) (fun k => x2 (ix2 k j)) (x5 (ix2 r j)) :=
  upd1_apply x0 x2 x5 r j

end Cert.KernelIdeal.Hand

end
-- ==== Proof.Spec.lean ====
/-
  The two stages of the computation as whole-array functions.

  Stage one, per edge e and lane j: from the gathered endpoint rows (a 640000 × 128 array each), the column of
  degree products (640000 × 1) and the transposed weights, the edge's message

      msg(e,j) = ( ∑ₖ p(e,k) · w1(k,j) + ∑ₖ (u(e,k) · v(e,k)) · w2(k,j) ) · rsqrt( d(e,0) + ε ).

  Stage two, per node n and lane j: from the node table x, the messages summed into the nodes and the transposed
  weight, the leaky rectifier of ∑ₖ x(n,k) · w(k,j) + msg(n,j).

  Between the two stages both programs apply one and the same scatter-add of the edge messages into the node rows;
  it is never opened here.
-/
import proofs.«143865_j13778255086103_2_alg».proof.Proof.Body0
import proofs.«143865_j13778255086103_2_alg».proof.Proof.Body1

noncomputable section

namespace Cert.KernelIdeal.Hand

open Idealize.ShloMosaic Idealize.ShloMosaic.ValueIdx

/-- The edge messages as one function of the gathered rows, the degree products and the weights. -/
def edgeMsg (p u v : (⟨2, ![640000, 128]⟩ : Shape).Idx → EReal) (d : (⟨2, ![640000, 1]⟩ : Shape).Idx → EReal)
    (w1 w2 : (⟨2, ![128, 128]⟩ : Shape).Idx → EReal) : (⟨2, ![640000, 128]⟩ : Shape).Idx → EReal := fun i =>
  edgeAt (fun k => p (ix2 (⟨(i 0).val, idx2_lt0 i⟩ : Fin 640000) k)) (fun k => u (ix2 (⟨(i 0).val, idx2_lt0 i⟩ : Fin 640000) k))
    (fun k => v (ix2 (⟨(i 0).val, idx2_lt0 i⟩ : Fin 640000) k)) (d (ix2 (⟨(i 0).val, idx2_lt0 i⟩ : Fin 640000) (0 : Fin 1)))
    (fun k => w1 (ix2 k (⟨(i 1).val, idx2_lt1 i⟩ : Fin 128))) (fun k => w2 (ix2 k (⟨(i 1).val, idx2_lt1 i⟩ : Fin 128)))

theorem edgeMsg_ix2 (p u v : (⟨2, ![640000, 128]⟩ : Shape).Idx → EReal) (d : (⟨2, ![640000, 1]⟩ : Shape).Idx → EReal)
    (w1 w2 : (⟨2, ![128, 128]⟩ : Shape).Idx → EReal) (e : Fin 640000) (j : Fin 128) :
    edgeMsg p u v d w1 w2 (ix2 e j) = edgeAt (fun k => p (ix2 e k)) (fun k => u (ix2 e k)) (fun k => v (ix2 e k))
      (d (ix2 e (0 : Fin 1))) (fun k => w1 (ix2 k j)) (fun k => w2 (ix2 k j)) := rfl

/-- The node update as one function of the node table, the summed messages and the weight. -/
def nodeUpd {n : Nat} (x msg : (⟨2, ![n, 128]⟩ : Shape).Idx → EReal) (w : (⟨2, ![128, 128]⟩ : Shape).Idx → EReal) :
    (⟨2, ![n, 128]⟩ : Shape).Idx → EReal := fun i =>
  updAt (fun k => x (ix2 (⟨(i 0).val, idx2_lt0 i⟩ : Fin n) k)) (fun k => w (ix2 k (⟨(i 1).val, idx2_lt1 i⟩ : Fin 128))) (msg i)

theorem nodeUpd_ix2 {n : Nat} (x msg : (⟨2, ![n, 128]⟩ : Shape).Idx → EReal) (w : (⟨2, ![128, 128]⟩ : Shape).Idx → EReal)
    (r : Fin n) (j : Fin 128) :
    nodeUpd x msg w (ix2 r j) = updAt (fun k => x (ix2 r k)) (fun k => w (ix2 k j)) (msg (ix2 r j)) := rfl

end Cert.KernelIdeal.Hand

end
-- ==== Proof.Blocks0.lean ====
/-
  The edge kernel's two result arrays as whole-array functions of the arrays the launch finds.

  The launch cuts the 640000 edges into 160 blocks of 4000. Block t of each row-blocked array is rows
  4000·t … 4000·t + 3999; the two weight matrices are one block each. Row r of what point t writes back is therefore
  the message of edge 4000·t + r computed from that edge's rows, and since the 160 blocks tile the edge axis each result
  array ends holding the edge-message function of the whole input arrays.
-/
import proofs.«143865_j13778255086103_2_alg».proof.Proof.Gen.KernelIdeal.Frame
import proofs.«143865_j13778255086103_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- Each row-blocked window's block index at point t is (t, 0); the weights' is (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Edge 4000·t + r: row r of block t. -/
def edgeOf (t : Fin cfg0.N) (r : Fin 4000) : Fin 640000 :=
  ⟨4000 * t.val + r.val, by have h : t.val < 160 := t.isLt.trans_eq N_0; have := r.isLt; omega⟩

/-- The first gathered table's block at point t, row r: the table's row 4000·t + r. -/
theorem iblk0_0_apply (c : Dev nD) (t : Fin cfg0.N) (r : Fin 4000) (k : Fin 128) :
    (iblk0 V c 0 t : Vec Ideal S4000x128 .bf16) (ix2 r k) = (V c main_v8 : S640000x128.Idx → EReal) (ix2 (edgeOf t r) k) := by
  have hi := idx0 t
  unfold iblk0
  rw [View.read_apply]
  show V c main_v8 _ = V c main_v8 _
  congr 1
  funext a; apply Fin.ext
  match a with
  | ⟨0, _⟩ => show win0_0.index t (0 : Fin 2) * 4000 + 1 * r.val = 4000 * t.val + r.val; rw [hi.1]; omega
  | ⟨1, _⟩ => show win0_0.index t (1 : Fin 2) * 128 + 1 * k.val = k.val; rw [hi.2.1]; omega

/-- The second gathered table's block. -/
theorem iblk0_1_apply (c : Dev nD) (t : Fin cfg0.N) (r : Fin 4000) (k : Fin 128) :
    (iblk0 V c 1 t : Vec Ideal S4000x128 .bf16) (ix2 r k) = (V c main_v15 : S640000x128.Idx → EReal) (ix2 (edgeOf t r) k) := by
  have hi := idx0 t
  unfold iblk0
  rw [View.read_apply]
  show V c main_v15 _ = V c main_v15 _
  congr 1
  funext a; apply Fin.ext
  match a with
  | ⟨0, _⟩ => show win0_1.index t (0 : Fin 2) * 4000 + 1 * r.val = 4000 * t.val + r.val; rw [hi.2.2.1]; omega
  | ⟨1, _⟩ => show win0_1.index t (1 : Fin 2) * 128 + 1 * k.val = k.val; rw [hi.2.2.2.1]; omega

/-- The degree products' block. -/
theorem iblk0_2_apply (c : Dev nD) (t : Fin cfg0.N) (r : Fin 4000) (u : Fin 1) :
    (iblk0 V c 2 t : Vec Ideal S4000x1 .f32) (ix2 r u) = (V c main_v31 : S640000x1.Idx → EReal) (ix2 (edgeOf t r) u) := by
  have hi := idx0 t
  unfold iblk0
  rw [View.read_apply]
  show V c main_v31 _ = V c main_v31 _
  congr 1
  funext a; apply Fin.ext
  match a with
  | ⟨0, _⟩ => show win0_2.index t (0 : Fin 2) * 4000 + 1 * r.val = 4000 * t.val + r.val; rw [hi.2.2.2.2.1]; omega
  | ⟨1, _⟩ => show win0_2.index t (1 : Fin 2) * 1 + 1 * u.val = u.val; rw [hi.2.2.2.2.2.1]; omega

/-- The first weight matrix is its own one block. -/
theorem iblk0_3_apply (c : Dev nD) (t : Fin cfg0.N) (k j : Fin 128) :
    (iblk0 V c 3 t : Vec Ideal S128x128 .bf16) (ix2 k j) = (V c main_v33 : S128x128.Idx → EReal) (ix2 k j) := by
  have hi := idx0 t
  unfold iblk0
  rw [View.read_apply]
  show V c main_v33 _ = V c main_v33 _
  congr 1
  funext a; apply Fin.ext
  match a with
  | ⟨0, _⟩ => show win0_3.index t (0 : Fin 2) * 128 + 1 * k.val = k.val; rw [hi.2.2.2.2.2.2.1]; omega
  | ⟨1, _⟩ => show win0_3.index t (1 : Fin 2) * 128 + 1 * j.val = j.val; rw [hi.2.2.2.2.2.2.2.1]; omega

/-- So is the second. -/
theorem iblk0_4_apply (c : Dev nD) (t : Fin cfg0.N) (k j : Fin 128) :
    (iblk0 V c 4 t : Vec Ideal S128x128 .bf16) (ix2 k j) = (V c main_v35 : S128x128.Idx → EReal) (ix2 k j) := by
  have hi := idx0 t
  unfold iblk0
  rw [View.read_apply]
  show V c main_v35 _ = V c main_v35 _
  congr 1
  funext a; apply Fin.ext
  match a with
  | ⟨0, _⟩ => show win0_4.index t (0 : Fin 2) * 128 + 1 * k.val = k.val; rw [hi.2.2.2.2.2.2.2.2.1]; omega
  | ⟨1, _⟩ => show win0_4.index t (1 : Fin 2) * 128 + 1 * j.val = j.val; rw [hi.2.2.2.2.2.2.2.2.2.1]; omega

/-- The messages into the first node set, from the arrays the launch finds. -/
def msgU (c : Dev nD) : S640000x128.Idx → EReal :=
  edgeMsg (V c main_v15) (V c main_v8) (V c main_v15) (V c main_v31) (V c main_v33) (V c main_v35)

/-- The messages into the second node set. -/
def msgV (c : Dev nD) : S640000x128.Idx → EReal :=
  edgeMsg (V c main_v8) (V c main_v8) (V c main_v15) (V c main_v31) (V c main_v33) (V c main_v35)

/-- What point t writes back to the first result is block t of the messages into the first node set. -/
theorem flushed0_5_eq (c : Dev nD) (t : Fin cfg0.N) :
    (dat0 V c).flushed 5 t = ((cfg0.win 5).blk t).view.read (Elt Ideal) (msgU V c) := by
  have hi := idx0 t
  show (cfg0.win 5).cut (grid0.coords t) ((dat0 V c).after 5 t) = _
  rw [after0_5]
  unfold out0_5
  rw [View.canon_unit_zero hz]
  simp only [View.ld_unit_zero (S := S4000x128) hz, View.ld_unit_zero (S := S4000x1) hz, View.ld_unit_zero (S := S128x128) hz]
  refine funext fun (y : S4000x128.Idx) => ?_
  obtain ⟨r, j, rfl⟩ : ∃ (r : Fin 4000) (j : Fin 128), y = ix2 r j := ⟨y 0, y 1, eq_ix2 y⟩
  have hE : ((cfg0.win 5).blk t).view.emb (ix2 r j) = (ix2 (edgeOf t r) j : S640000x128.Idx) := by
    funext a; apply Fin.ext
    match a with
    | ⟨0, _⟩ => show win0_5.index t (0 : Fin 2) * 4000 + 1 * r.val = 4000 * t.val + r.val; rw [hi.2.2.2.2.2.2.2.2.2.2.1]; omega
    | ⟨1, _⟩ => show win0_5.index t (1 : Fin 2) * 128 + 1 * j.val = j.val; rw [hi.2.2.2.2.2.2.2.2.2.2.2.1]; omega
  rw [View.read_apply, hE]
  refine (pay6_apply (iblk0 V c 0 t) (iblk0 V c 1 t) (iblk0 V c 2 t) (iblk0 V c 3 t) (iblk0 V c 4 t) r j).trans ?_
  simp only [iblk0_0_apply, iblk0_1_apply, iblk0_2_apply, iblk0_3_apply, iblk0_4_apply]
  rfl

/-- And to the second result, block t of the messages into the second node set. -/
theorem flushed0_6_eq (c : Dev nD) (t : Fin cfg0.N) :
    (dat0 V c).flushed 6 t = ((cfg0.win 6).blk t).view.read (Elt Ideal) (msgV V c) := by
  have hi := idx0 t
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x128) hz]
  refine funext fun (y : S4000x128.Idx) => ?_
  obtain ⟨r, j, rfl⟩ : ∃ (r : Fin 4000) (j : Fin 128), y = ix2 r j := ⟨y 0, y 1, eq_ix2 y⟩
  have hE : ((cfg0.win 6).blk t).view.emb (ix2 r j) = (ix2 (edgeOf t r) j : S640000x128.Idx) := by
    funext a; apply Fin.ext
    match a with
    | ⟨0, _⟩ => show win0_6.index t (0 : Fin 2) * 4000 + 1 * r.val = 4000 * t.val + r.val; rw [hi.2.2.2.2.2.2.2.2.2.2.2.2.1]; omega
    | ⟨1, _⟩ => show win0_6.index t (1 : Fin 2) * 128 + 1 * j.val = j.val; rw [hi.2.2.2.2.2.2.2.2.2.2.2.2.2]; omega
  rw [View.read_apply, hE]
  refine (pay7_apply (iblk0 V c 0 t) (iblk0 V c 1 t) (iblk0 V c 2 t) (iblk0 V c 3 t) (iblk0 V c 4 t) r j).trans ?_
  simp only [iblk0_0_apply, iblk0_1_apply, iblk0_2_apply, iblk0_3_apply, iblk0_4_apply]
  rfl

/-- An index of a result array is in point t's block iff its row is among rows 4000·t … 4000·t + 3999. -/
theorem mem_blk0_5 (t : Fin cfg0.N) (i : S640000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v36_0).slice (win0_5.rect t)).set ↔ _
  rw [View.set_slice_whole, Rect.mem_set_unit]
  exact Iff.rfl

theorem mem_blk0_6 (t : Fin cfg0.N) (i : S640000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v36_1).slice (win0_6.rect t)).set ↔ _
  rw [View.set_slice_whole, Rect.mem_set_unit]
  exact Iff.rfl

/-- The point whose block holds edge row e: e / 4000. -/
def pointOf (i : S640000x128.Idx) : Fin cfg0.N :=
  ⟨(i 0).val / 4000, by rw [show cfg0.N = 160 from N_0]; have := idx2_lt0 i; omega⟩

/-- The first result array after the launch: the messages into the first node set. -/
theorem final0_5 (c : Dev nD) : (dat0 V c).arrAt 5 cfg0.N = msgU V c :=
  (dat0 V c).arrAt_eq_of_cover 5 (msgU V c) (fun t _ => flushed0_5_eq V c t) fun i =>
    ⟨pointOf i, flush0_5 _, by
      have hi := idx0 (pointOf i)
      have h0 := idx2_lt0 i
      have h1 := idx2_lt1 i
      rw [mem_blk0_5]
      intro a
      match a with
      | ⟨0, _⟩ => show win0_5.index (pointOf i) (0 : Fin 2) * 4000 ≤ (i 0).val ∧ (i 0).val < win0_5.index (pointOf i) (0 : Fin 2) * 4000 + 4000
                  rw [hi.2.2.2.2.2.2.2.2.2.2.1]; show (i 0).val / 4000 * 4000 ≤ (i 0).val ∧ (i 0).val < (i 0).val / 4000 * 4000 + 4000; omega
      | ⟨1, _⟩ => show win0_5.index (pointOf i) (1 : Fin 2) * 128 ≤ (i 1).val ∧ (i 1).val < win0_5.index (pointOf i) (1 : Fin 2) * 128 + 128
                  rw [hi.2.2.2.2.2.2.2.2.2.2.2.1]; omega⟩

/-- The second result array after the launch: the messages into the second node set. -/
theorem final0_6 (c : Dev nD) : (dat0 V c).arrAt 6 cfg0.N = msgV V c :=
  (dat0 V c).arrAt_eq_of_cover 6 (msgV V c) (fun t _ => flushed0_6_eq V c t) fun i =>
    ⟨pointOf i, flush0_6 _, by
      have hi := idx0 (pointOf i)
      have h0 := idx2_lt0 i
      have h1 := idx2_lt1 i
      rw [mem_blk0_6]
      intro a
      match a with
      | ⟨0, _⟩ => show win0_6.index (pointOf i) (0 : Fin 2) * 4000 ≤ (i 0).val ∧ (i 0).val < win0_6.index (pointOf i) (0 : Fin 2) * 4000 + 4000
                  rw [hi.2.2.2.2.2.2.2.2.2.2.2.2.1]; show (i 0).val / 4000 * 4000 ≤ (i 0).val ∧ (i 0).val < (i 0).val / 4000 * 4000 + 4000; omega
      | ⟨1, _⟩ => show win0_6.index (pointOf i) (1 : Fin 2) * 128 ≤ (i 1).val ∧ (i 1).val < win0_6.index (pointOf i) (1 : Fin 2) * 128 + 128
                  rw [hi.2.2.2.2.2.2.2.2.2.2.2.2.2]; omega⟩

end Cert.KernelIdeal.Hand

end
-- ==== Proof.Blocks1.lean ====
/-
  The first update launch's result array as a whole-array function of the arrays the launch finds.

  The launch cuts the 100000 node rows into 20 blocks of 5000; block t of the node table and of the summed messages
  is rows 5000·t … 5000·t + 4999, and the weight matrix is one block. Row r of what point t writes back is the new
  value of node 5000·t + r, and the 20 blocks tile the node axis, so the result array ends holding the node
  update of the whole input arrays.
-/
import proofs.«143865_j13778255086103_2_alg».proof.Proof.Gen.KernelIdeal.Frame
import proofs.«143865_j13778255086103_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- Each row-blocked window's block index at point t is (t, 0); the weight's is (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Node 5000·t + r: row r of block t. -/
def nodeOf1 (t : Fin cfg1.N) (r : Fin 5000) : Fin 100000 :=
  ⟨5000 * t.val + r.val, by have h : t.val < 20 := t.isLt.trans_eq N_1; have := r.isLt; omega⟩

/-- The node table's block at point t, row r: the table's row 5000·t + r. -/
theorem iblk1_0_apply (c : Dev nD) (t : Fin cfg1.N) (r : Fin 5000) (k : Fin 128) :
    (iblk1 V c 0 t : Vec Ideal S5000x128 .f32) (ix2 r k) = (V c main_arg0 : S100000x128.Idx → EReal) (ix2 (nodeOf1 t r) k) := by
  have hi := idx1 t
  unfold iblk1
  rw [View.read_apply]
  show V c main_arg0 _ = V c main_arg0 _
  congr 1
  funext a; apply Fin.ext
  match a with
  | ⟨0, _⟩ => show win1_0.index t (0 : Fin 2) * 5000 + 1 * r.val = 5000 * t.val + r.val; rw [hi.1]; omega
  | ⟨1, _⟩ => show win1_0.index t (1 : Fin 2) * 128 + 1 * k.val = k.val; rw [hi.2.1]; omega

/-- The summed messages' block. -/
theorem iblk1_1_apply (c : Dev nD) (t : Fin cfg1.N) (r : Fin 5000) (k : Fin 128) :
    (iblk1 V c 1 t : Vec Ideal S5000x128 .f32) (ix2 r k) = (V c main_v40 : S100000x128.Idx → EReal) (ix2 (nodeOf1 t r) k) := by
  have hi := idx1 t
  unfold iblk1
  rw [View.read_apply]
  show V c main_v40 _ = V c main_v40 _
  congr 1
  funext a; apply Fin.ext
  match a with
  | ⟨0, _⟩ => show win1_1.index t (0 : Fin 2) * 5000 + 1 * r.val = 5000 * t.val + r.val; rw [hi.2.2.1]; omega
  | ⟨1, _⟩ => show win1_1.index t (1 : Fin 2) * 128 + 1 * k.val = k.val; rw [hi.2.2.2.1]; omega

/-- The weight matrix is its own one block. -/
theorem iblk1_2_apply (c : Dev nD) (t : Fin cfg1.N) (k j : Fin 128) :
    (iblk1 V c 2 t : Vec Ideal S128x128 .bf16) (ix2 k j) = (V c main_v33 : S128x128.Idx → EReal) (ix2 k j) := by
  have hi := idx1 t
  unfold iblk1
  rw [View.read_apply]
  show V c main_v33 _ = V c main_v33 _
  congr 1
  funext a; apply Fin.ext
  match a with
  | ⟨0, _⟩ => show win1_2.index t (0 : Fin 2) * 128 + 1 * k.val = k.val; rw [hi.2.2.2.2.1]; omega
  | ⟨1, _⟩ => show win1_2.index t (1 : Fin 2) * 128 + 1 * j.val = j.val; rw [hi.2.2.2.2.2.1]; omega

/-- The updated node table, from the arrays the launch finds. -/
def new1 (c : Dev nD) : S100000x128.Idx → EReal :=
  nodeUpd (n := 100000) (V c main_arg0) (V c main_v40) (V c main_v33)

/-- What point t writes back is block t of the updated node table. -/
theorem flushed1_3_eq (c : Dev nD) (t : Fin cfg1.N) :
    (dat1 V c).flushed 3 t = ((cfg1.win 3).blk t).view.read (Elt Ideal) (new1 V c) := by
  have hi := idx1 t
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1]
  refine funext fun (y : S5000x128.Idx) => ?_
  obtain ⟨r, j, rfl⟩ : ∃ (r : Fin 5000) (j : Fin 128), y = ix2 r j := ⟨y 0, y 1, eq_ix2 y⟩
  have hE : ((cfg1.win 3).blk t).view.emb (ix2 r j) = (ix2 (nodeOf1 t r) j : S100000x128.Idx) := by
    funext a; apply Fin.ext
    match a with
    | ⟨0, _⟩ => show win1_3.index t (0 : Fin 2) * 5000 + 1 * r.val = 5000 * t.val + r.val; rw [hi.2.2.2.2.2.2.1]; omega
    | ⟨1, _⟩ => show win1_3.index t (1 : Fin 2) * 128 + 1 * j.val = j.val; rw [hi.2.2.2.2.2.2.2]; omega
  rw [View.read_apply, hE]
  refine (upd1_apply (iblk1 V c 0 t) (iblk1 V c 2 t) (iblk1 V c 1 t) r j).trans ?_
  simp only [iblk1_0_apply, iblk1_1_apply, iblk1_2_apply]
  rfl

/-- An index of the result array is in point t's block iff its row is among rows 5000·t … 5000·t + 4999. -/
theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- The point whose block holds node row n: n / 5000. -/
def pointOf1 (i : S100000x128.Idx) : Fin cfg1.N :=
  ⟨(i 0).val / 5000, by rw [show cfg1.N = 20 from N_1]; have := idx2_lt0 i; omega⟩

/-- The result array after the launch: the updated node table. -/
theorem final1_3 (c : Dev nD) : (dat1 V c).arrAt 3 cfg1.N = new1 V c :=
  (dat1 V c).arrAt_eq_of_cover 3 (new1 V c) (fun t _ => flushed1_3_eq V c t) fun i =>
    ⟨pointOf1 i, flush1_3 _, by
      have hi := idx1 (pointOf1 i)
      have h0 := idx2_lt0 i
      have h1 := idx2_lt1 i
      rw [mem_blk1_3]
      intro a
      match a with
      | ⟨0, _⟩ => show win1_3.index (pointOf1 i) (0 : Fin 2) * 5000 ≤ (i 0).val ∧ (i 0).val < win1_3.index (pointOf1 i) (0 : Fin 2) * 5000 + 5000
                  rw [hi.2.2.2.2.2.2.1]; show (i 0).val / 5000 * 5000 ≤ (i 0).val ∧ (i 0).val < (i 0).val / 5000 * 5000 + 5000; omega
      | ⟨1, _⟩ => show win1_3.index (pointOf1 i) (1 : Fin 2) * 128 ≤ (i 1).val ∧ (i 1).val < win1_3.index (pointOf1 i) (1 : Fin 2) * 128 + 128
                  rw [hi.2.2.2.2.2.2.2]; omega⟩

end Cert.KernelIdeal.Hand

end
-- ==== Proof.Blocks2.lean ====
/-
  The second update launch's result array as a whole-array function of the arrays the launch finds.

  The launch cuts the 50000 node rows into 10 blocks of 5000; block t of the node table and of the summed messages
  is rows 5000·t … 5000·t + 4999, and the weight matrix is one block. Row r of what point t writes back is the new
  value of node 5000·t + r, and the 10 blocks tile the node axis, so the result array ends holding the node
  update of the whole input arrays.
-/
import proofs.«143865_j13778255086103_2_alg».proof.Proof.Gen.KernelIdeal.Frame
import proofs.«143865_j13778255086103_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- Each row-blocked window's block index at point t is (t, 0); the weight's is (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Node 5000·t + r: row r of block t. -/
def nodeOf2 (t : Fin cfg2.N) (r : Fin 5000) : Fin 50000 :=
  ⟨5000 * t.val + r.val, by have h : t.val < 10 := t.isLt.trans_eq N_2; have := r.isLt; omega⟩

/-- The node table's block at point t, row r: the table's row 5000·t + r. -/
theorem iblk2_0_apply (c : Dev nD) (t : Fin cfg2.N) (r : Fin 5000) (k : Fin 128) :
    (iblk2 V c 0 t : Vec Ideal S5000x128 .f32) (ix2 r k) = (V c main_arg1 : S50000x128.Idx → EReal) (ix2 (nodeOf2 t r) k) := by
  have hi := idx2 t
  unfold iblk2
  rw [View.read_apply]
  show V c main_arg1 _ = V c main_arg1 _
  congr 1
  funext a; apply Fin.ext
  match a with
  | ⟨0, _⟩ => show win2_0.index t (0 : Fin 2) * 5000 + 1 * r.val = 5000 * t.val + r.val; rw [hi.1]; omega
  | ⟨1, _⟩ => show win2_0.index t (1 : Fin 2) * 128 + 1 * k.val = k.val; rw [hi.2.1]; omega

/-- The summed messages' block. -/
theorem iblk2_1_apply (c : Dev nD) (t : Fin cfg2.N) (r : Fin 5000) (k : Fin 128) :
    (iblk2 V c 1 t : Vec Ideal S5000x128 .f32) (ix2 r k) = (V c main_v44 : S50000x128.Idx → EReal) (ix2 (nodeOf2 t r) k) := by
  have hi := idx2 t
  unfold iblk2
  rw [View.read_apply]
  show V c main_v44 _ = V c main_v44 _
  congr 1
  funext a; apply Fin.ext
  match a with
  | ⟨0, _⟩ => show win2_1.index t (0 : Fin 2) * 5000 + 1 * r.val = 5000 * t.val + r.val; rw [hi.2.2.1]; omega
  | ⟨1, _⟩ => show win2_1.index t (1 : Fin 2) * 128 + 1 * k.val = k.val; rw [hi.2.2.2.1]; omega

/-- The weight matrix is its own one block. -/
theorem iblk2_2_apply (c : Dev nD) (t : Fin cfg2.N) (k j : Fin 128) :
    (iblk2 V c 2 t : Vec Ideal S128x128 .bf16) (ix2 k j) = (V c main_v33 : S128x128.Idx → EReal) (ix2 k j) := by
  have hi := idx2 t
  unfold iblk2
  rw [View.read_apply]
  show V c main_v33 _ = V c main_v33 _
  congr 1
  funext a; apply Fin.ext
  match a with
  | ⟨0, _⟩ => show win2_2.index t (0 : Fin 2) * 128 + 1 * k.val = k.val; rw [hi.2.2.2.2.1]; omega
  | ⟨1, _⟩ => show win2_2.index t (1 : Fin 2) * 128 + 1 * j.val = j.val; rw [hi.2.2.2.2.2.1]; omega

/-- The updated node table, from the arrays the launch finds. -/
def new2 (c : Dev nD) : S50000x128.Idx → EReal :=
  nodeUpd (n := 50000) (V c main_arg1) (V c main_v44) (V c main_v33)

/-- What point t writes back is block t of the updated node table. -/
theorem flushed2_3_eq (c : Dev nD) (t : Fin cfg2.N) :
    (dat2 V c).flushed 3 t = ((cfg2.win 3).blk t).view.read (Elt Ideal) (new2 V c) := by
  have hi := idx2 t
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2]
  refine funext fun (y : S5000x128.Idx) => ?_
  obtain ⟨r, j, rfl⟩ : ∃ (r : Fin 5000) (j : Fin 128), y = ix2 r j := ⟨y 0, y 1, eq_ix2 y⟩
  have hE : ((cfg2.win 3).blk t).view.emb (ix2 r j) = (ix2 (nodeOf2 t r) j : S50000x128.Idx) := by
    funext a; apply Fin.ext
    match a with
    | ⟨0, _⟩ => show win2_3.index t (0 : Fin 2) * 5000 + 1 * r.val = 5000 * t.val + r.val; rw [hi.2.2.2.2.2.2.1]; omega
    | ⟨1, _⟩ => show win2_3.index t (1 : Fin 2) * 128 + 1 * j.val = j.val; rw [hi.2.2.2.2.2.2.2]; omega
  rw [View.read_apply, hE]
  refine (upd2_apply (iblk2 V c 0 t) (iblk2 V c 2 t) (iblk2 V c 1 t) r j).trans ?_
  simp only [iblk2_0_apply, iblk2_1_apply, iblk2_2_apply]
  rfl

/-- An index of the result array is in point t's block iff its row is among rows 5000·t … 5000·t + 4999. -/
theorem mem_blk2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v46).slice (win2_3.rect t)).set ↔ _
  rw [View.set_slice_whole, Rect.mem_set_unit]
  exact Iff.rfl

/-- The point whose block holds node row n: n / 5000. -/
def pointOf2 (i : S50000x128.Idx) : Fin cfg2.N :=
  ⟨(i 0).val / 5000, by rw [show cfg2.N = 10 from N_2]; have := idx2_lt0 i; omega⟩

/-- The result array after the launch: the updated node table. -/
theorem final2_3 (c : Dev nD) : (dat2 V c).arrAt 3 cfg2.N = new2 V c :=
  (dat2 V c).arrAt_eq_of_cover 3 (new2 V c) (fun t _ => flushed2_3_eq V c t) fun i =>
    ⟨pointOf2 i, flush2_3 _, by
      have hi := idx2 (pointOf2 i)
      have h0 := idx2_lt0 i
      have h1 := idx2_lt1 i
      rw [mem_blk2_3]
      intro a
      match a with
      | ⟨0, _⟩ => show win2_3.index (pointOf2 i) (0 : Fin 2) * 5000 ≤ (i 0).val ∧ (i 0).val < win2_3.index (pointOf2 i) (0 : Fin 2) * 5000 + 5000
                  rw [hi.2.2.2.2.2.2.1]; show (i 0).val / 5000 * 5000 ≤ (i 0).val ∧ (i 0).val < (i 0).val / 5000 * 5000 + 5000; omega
      | ⟨1, _⟩ => show win2_3.index (pointOf2 i) (1 : Fin 2) * 128 ≤ (i 1).val ∧ (i 1).val < win2_3.index (pointOf2 i) (1 : Fin 2) * 128 + 128
                  rw [hi.2.2.2.2.2.2.2]; omega⟩

end Cert.KernelIdeal.Hand

end
-- ==== Proof.KernelValue.lean ====
/-
  The idealized kernel's two results as functions of its arguments.

  Reading the segment boundaries backwards from the end:
    * each result is the node update of its launch's three input arrays;
    * of those, the node table is the argument itself (no segment writes it), the weight is the transposed first
      weight matrix the host computed before the edge launch (nothing in between writes it), and the summed messages
      are the host's scatter-add, into an all-zero table and along the argument's edge indices, of the edge launch's
      result array;
    * the edge launch's result arrays are the edge-message functions of the five arrays the host prepared: the two
      gathered tables, the column of degree products and the two transposed weights.
-/
import proofs.«143865_j13778255086103_2_alg».proof.Proof.KernelRun
import proofs.«143865_j13778255086103_2_alg».proof.Proof.Blocks0
import proofs.«143865_j13778255086103_2_alg».proof.Proof.Blocks1
import proofs.«143865_j13778255086103_2_alg».proof.Proof.Blocks2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

/-! ## The host's stages as functions of arrays -/

/-- Edge indices as the gather takes them: a negative index counted from the end of a table of n rows, as a column. -/
def wrapIdx (n : BitVec 32) (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 n))) x)

/-- The first node table's rows gathered along the edges. -/
def gatherU (x : FVec Ideal S100000x128 .f32) (e : IVec S640000 32) : FVec Ideal S640000x128 .bf16 :=
  Host.gather gather_S100000x128_S640000x1_S640000x128_1_0_n_n_0_1_1128 (truncf .bf16 x bitsLt_bf16_f32) (wrapIdx 100000#32 e)

/-- The second node table's rows gathered along the edges. -/
def gatherV (x : FVec Ideal S50000x128 .f32) (e : IVec S640000 32) : FVec Ideal S640000x128 .bf16 :=
  Host.gather gather_S50000x128_S640000x1_S640000x128_1_0_n_n_0_1_1128 (truncf .bf16 x bitsLt_bf16_f32) (wrapIdx 50000#32 e)

/-- The column of degree products along the edges. -/
def degProd (e2 e3 : IVec S640000 32) (d4 : FVec Ideal S100000 .f32) (d5 : FVec Ideal S50000 .f32) : FVec Ideal S640000x1 .f32 :=
  shapeCast S640000x1 (mulf
      (Host.gather gather_S100000_S640000x1_S640000_n_0_n_n_0_1_1 d4 (wrapIdx 100000#32 e2))
      (Host.gather gather_S50000_S640000x1_S640000_n_0_n_n_0_1_1 d5 (wrapIdx 50000#32 e3)))
    shapeCasts_S640000_S640000x1

/-- A weight matrix transposed. -/
def weightT (w : FVec Ideal S128x128 .f32) : FVec Ideal S128x128 .bf16 :=
  truncf .bf16 (transpose S128x128 [1, 0] w transposes_S128x128_S128x128_1_0) bitsLt_bf16_f32

/-- Edge messages summed into the first node set's rows. -/
def sumU (e : IVec S640000 32) (u : FVec Ideal S640000x128 .bf16) : FVec Ideal S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 e)
    (extf .f32 u bitsLt_bf16_f32)

/-- Edge messages summed into the second node set's rows. -/
def sumV (e : IVec S640000 32) (u : FVec Ideal S640000x128 .bf16) : FVec Ideal S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 e)
    (extf .f32 u bitsLt_bf16_f32)

/-- The first result as a function of the eight argument arrays. -/
def outU (x0 : FVec Ideal S100000x128 .f32) (x1 : FVec Ideal S50000x128 .f32) (e2 e3 : IVec S640000 32)
    (d4 : FVec Ideal S100000 .f32) (d5 : FVec Ideal S50000 .f32) (w6 w7 : FVec Ideal S128x128 .f32) : S100000x128.Idx → EReal :=
  nodeUpd (n := 100000) x0
    (sumU e2 (edgeMsg (gatherV x1 e3) (gatherU x0 e2) (gatherV x1 e3) (degProd e2 e3 d4 d5) (weightT w6) (weightT w7)))
    (weightT w6)

/-- The second result as a function of the eight argument arrays. -/
def outV (x0 : FVec Ideal S100000x128 .f32) (x1 : FVec Ideal S50000x128 .f32) (e2 e3 : IVec S640000 32)
    (d4 : FVec Ideal S100000 .f32) (d5 : FVec Ideal S50000 .f32) (w6 w7 : FVec Ideal S128x128 .f32) : S50000x128.Idx → EReal :=
  nodeUpd (n := 50000) x1
    (sumV e3 (edgeMsg (gatherU x0 e2) (gatherU x0 e2) (gatherV x1 e3) (degProd e2 e3 d4 d5) (weightT w6) (weightT w7)))
    (weightT w6)

variable (m : (ℓ : Loc nD τ sig) → Buf (Elt Ideal) ℓ) (ρ : Dev nD → PrngReg)

/-- The eight arguments as arrays. -/
abbrev a0 (c : Dev nD) : FVec Ideal S100000x128 .f32 := m ((c : Thread nD τ).loc main_arg0)
abbrev a1 (c : Dev nD) : FVec Ideal S50000x128 .f32 := m ((c : Thread nD τ).loc main_arg1)
abbrev a2 (c : Dev nD) : IVec S640000 32 := m ((c : Thread nD τ).loc main_arg2)
abbrev a3 (c : Dev nD) : IVec S640000 32 := m ((c : Thread nD τ).loc main_arg3)
abbrev a4 (c : Dev nD) : FVec Ideal S100000 .f32 := m ((c : Thread nD τ).loc main_arg4)
abbrev a5 (c : Dev nD) : FVec Ideal S50000 .f32 := m ((c : Thread nD τ).loc main_arg5)
abbrev a6 (c : Dev nD) : FVec Ideal S128x128 .f32 := m ((c : Thread nD τ).loc main_arg6)
abbrev a7 (c : Dev nD) : FVec Ideal S128x128 .f32 := m ((c : Thread nD τ).loc main_arg7)

/-! ## The arrays the edge launch finds -/

theorem V1_v8 (c : Dev nD) : V1 m ρ c main_v8 = gatherU (a0 m c) (a2 m c) := by
  show StableHlo.after hostOps0 (W0 m ρ c) (Proc.devRef .tc main_v8) = _
  after_results_simp
  rfl

theorem V1_v15 (c : Dev nD) : V1 m ρ c main_v15 = gatherV (a1 m c) (a3 m c) := by
  show StableHlo.after hostOps0 (W0 m ρ c) (Proc.devRef .tc main_v15) = _
  after_results_simp
  rfl

theorem V1_v31 (c : Dev nD) : V1 m ρ c main_v31 = degProd (a2 m c) (a3 m c) (a4 m c) (a5 m c) := by
  show StableHlo.after hostOps0 (W0 m ρ c) (Proc.devRef .tc main_v31) = _
  after_results_simp
  rfl

theorem V1_v33 (c : Dev nD) : V1 m ρ c main_v33 = weightT (a6 m c) := by
  show StableHlo.after hostOps0 (W0 m ρ c) (Proc.devRef .tc main_v33) = _
  after_results_simp
  rfl

theorem V1_v35 (c : Dev nD) : V1 m ρ c main_v35 = weightT (a7 m c) := by
  show StableHlo.after hostOps0 (W0 m ρ c) (Proc.devRef .tc main_v35) = _
  after_results_simp
  rfl

/-- The edge launch's first result: the messages into the first node set, from the arguments. -/
theorem msgU_eq (c : Dev nD) : msgU (V1 m ρ) c
    = edgeMsg (gatherV (a1 m c) (a3 m c)) (gatherU (a0 m c) (a2 m c)) (gatherV (a1 m c) (a3 m c))
        (degProd (a2 m c) (a3 m c) (a4 m c) (a5 m c)) (weightT (a6 m c)) (weightT (a7 m c)) := by
  unfold msgU
  rw [V1_v8, V1_v15, V1_v31, V1_v33, V1_v35]

/-- Its second result: the messages into the second node set. -/
theorem msgV_eq (c : Dev nD) : msgV (V1 m ρ) c
    = edgeMsg (gatherU (a0 m c) (a2 m c)) (gatherU (a0 m c) (a2 m c)) (gatherV (a1 m c) (a3 m c))
        (degProd (a2 m c) (a3 m c) (a4 m c) (a5 m c)) (weightT (a6 m c)) (weightT (a7 m c)) := by
  unfold msgV
  rw [V1_v8, V1_v15, V1_v31, V1_v33, V1_v35]

/-! ## The arrays the update launches find -/

/-- The edge indices are still the argument's after the edge launch. -/
theorem W2_arg2 (c : Dev nD) : W2 m ρ c (Proc.devRef .tc main_arg2) = m ((c : Thread nD τ).loc main_arg2) :=
  (W2_of_ne m ρ c main_arg2 (by decide)).trans (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))
theorem W2_arg3 (c : Dev nD) : W2 m ρ c (Proc.devRef .tc main_arg3) = m ((c : Thread nD τ).loc main_arg3) :=
  (W2_of_ne m ρ c main_arg3 (by decide)).trans (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The transposed first weight is untouched by the edge launch, which only reads it. -/
theorem W2_v33 (c : Dev nD) : W2 m ρ c (Proc.devRef .tc main_v33) = V1 m ρ c main_v33 :=
  (W2_arr m ρ c 3).trans (((dat0 (V1 m ρ) c).arrAt_in 3 rfl _).trans (A_eq0 (V1 m ρ) c 3))

/-- The summed messages into the first node set: the scatter-add of the edge launch's first result. -/
theorem V3_v40 (c : Dev nD) : V3 m ρ c main_v40 = sumU (a2 m c) (msgU (V1 m ρ) c) := by
  have h : V3 m ρ c main_v40 = sumU (W2 m ρ c (Proc.devRef .tc main_arg2)) (W2 m ρ c (Proc.devRef .tc main_v36_0)) := by
    show StableHlo.after hostOps1 (W2 m ρ c) (Proc.devRef .tc main_v40) = _
    after_results
    rfl
  rw [h, W2_arg2 m ρ c, show W2 m ρ c (Proc.devRef .tc main_v36_0) = msgU (V1 m ρ) c from (W2_arr m ρ c 5).trans (final0_5 (V1 m ρ) c)]

/-- The summed messages into the second node set. -/
theorem V3_v44 (c : Dev nD) : V3 m ρ c main_v44 = sumV (a3 m c) (msgV (V1 m ρ) c) := by
  have h : V3 m ρ c main_v44 = sumV (W2 m ρ c (Proc.devRef .tc main_arg3)) (W2 m ρ c (Proc.devRef .tc main_v36_1)) := by
    show StableHlo.after hostOps1 (W2 m ρ c) (Proc.devRef .tc main_v44) = _
    after_results
    rfl
  rw [h, W2_arg3 m ρ c, show W2 m ρ c (Proc.devRef .tc main_v36_1) = msgV (V1 m ρ) c from (W2_arr m ρ c 6).trans (final0_6 (V1 m ρ) c)]

theorem V3_v33 (c : Dev nD) : V3 m ρ c main_v33 = V1 m ρ c main_v33 :=
  (StableHlo.after_of_forall_not_mem (b := Proc.devRef .tc main_v33) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_v33 m ρ c)

theorem V3_arg0 (c : Dev nD) : V3 m ρ c main_arg0 = m ((c : Thread nD τ).loc main_arg0) :=
  ((W5_of_ne m ρ c main_arg0 (by decide)).trans ((W4_arr m ρ c 0).trans (((dat1 (V3 m ρ) c).arrAt_in 0 rfl _).trans (A_eq1 (V3 m ρ) c 0)))).symm.trans
    (W5_main_arg0 m ρ c)

theorem V4_arg1 (c : Dev nD) : V4 m ρ c main_arg1 = m ((c : Thread nD τ).loc main_arg1) :=
  ((W5_arr m ρ c 0).trans (((dat2 (V4 m ρ) c).arrAt_in 0 rfl _).trans (A_eq2 (V4 m ρ) c 0))).symm.trans (W5_main_arg1 m ρ c)

theorem V4_v44 (c : Dev nD) : V4 m ρ c main_v44 = V3 m ρ c main_v44 := W4_of_ne m ρ c main_v44 (by decide)

theorem V4_v33 (c : Dev nD) : V4 m ρ c main_v33 = V1 m ρ c main_v33 :=
  ((W4_arr m ρ c 2).trans (((dat1 (V3 m ρ) c).arrAt_in 2 rfl _).trans (A_eq1 (V3 m ρ) c 2))).trans (V3_v33 m ρ c)

/-! ## The two results -/

theorem W5_v45 (c : Dev nD) : W5 m ρ c (Proc.devRef .tc main_v45)
    = outU (a0 m c) (a1 m c) (a2 m c) (a3 m c) (a4 m c) (a5 m c) (a6 m c) (a7 m c) := by
  refine (W5_of_ne m ρ c main_v45 (by decide)).trans ((W4_arr m ρ c 3).trans ((final1_3 (V3 m ρ) c).trans ?_))
  unfold new1 outU
  rw [V3_arg0, V3_v40, V3_v33, msgU_eq, V1_v33]

theorem W5_v46 (c : Dev nD) : W5 m ρ c (Proc.devRef .tc main_v46)
    = outV (a0 m c) (a1 m c) (a2 m c) (a3 m c) (a4 m c) (a5 m c) (a6 m c) (a7 m c) := by
  refine (W5_arr m ρ c 3).trans ((final2_3 (V4 m ρ) c).trans ?_)
  unfold new2 outV
  rw [V4_arg1, V4_v44, V3_v44, V4_v33, msgV_eq, V1_v33]

/-- The run, read: each result at its function of the arguments, the arguments unchanged. -/
theorem run : θ_run defs (onTc (τ := τ) (main (F := Ideal))) ⟨m, fun _ => 0, ρ⟩ (fun r => ∀ c : Dev nD,
      r.2.mem ((c.tc : Thread nD τ).loc main_v45) = outU (a0 m c) (a1 m c) (a2 m c) (a3 m c) (a4 m c) (a5 m c) (a6 m c) (a7 m c)
      ∧ r.2.mem ((c.tc : Thread nD τ).loc main_v46) = outV (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W5_v45 m ρ c), (h c).2.1.trans (W5_v46 m ρ c), (h c).2.2⟩)
    (run_last m ρ)

end Cert.KernelIdeal.Hand

end
-- ==== Proof.PreDomain.lean ====
/-
  What the precondition gives: at every edge the argument of the square root is not negative.

  The precondition is a conjunction that ends in "for all edges e, d_u[edge_u[e]] · d_v[edge_v[e]] + ε ≥ 0": a
  reduction by "and" over the 640000 comparisons. If the conjunction is 1 its last conjunct is 1, a reduction by "and"
  that is 1 met a 1 at every edge, and a comparison "≥ 0" that is 1 on the extended reals says 0 ≤ its left side.
  Nothing else of the precondition is used: the two programs agree whatever the other inputs are, infinite ones
  included.
-/
import proofs.«143865_j13778255086103_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Hand

open Cert.Pre_finite_inputs Cert.Pre_finite_inputs.Facts Idealize.ShloMosaic Idealize.ShloMosaic.ValueIdx

variable [Cert.Pre_finite_inputs.Facts]

/-- Edge indices as the gather takes them: a negative index counted from the end of a table of n rows, as a column. -/
def wrapIdx (n : BitVec 32) (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 n))) x)

/-- The argument of the square root, edge by edge: the product of the two gathered degrees plus ε. -/
def sqrtArg (x2 x3 : IVec S640000 32) (x4 : FVec Ideal S100000 .f32) (x5 : FVec Ideal S50000 .f32) : FVec Ideal S640000 .f32 :=
  addf (mulf (Host.gather gather_S100000_S640000x1_S640000_n_0_n_n_0_1_1 x4 (wrapIdx 100000#32 x2))
             (Host.gather gather_S50000_S640000x1_S640000_n_0_n_n_0_1_1 x5 (wrapIdx 50000#32 x3)))
       (broadcastInDim S640000 ![] bcast_S_S640000 (constant (F := Ideal) S_ .f32 0x322BCC77#32))

/-- On the extended reals a comparison "x ≥ y" that answers 1 says y ≤ x. -/
theorem le_of_cmp_oge {x y : EReal} (h : Ideal.cmp .oge x y = 1#1) : y ≤ x := by
  unfold Ideal.cmp at h
  by_contra hn
  simp [hn] at h

instance : Subsingleton S_.Idx := ⟨fun a b => funext fun d => d.elim0⟩

/-- Under the precondition the argument of the square root is not negative at any edge. -/
theorem sqrtArg_nonneg (a0 : FVec Ideal S100000x128 .f32) (a1 : FVec Ideal S50000x128 .f32) (a2 a3 : IVec S640000 32)
    (a4 : FVec Ideal S100000 .f32) (a5 : FVec Ideal S50000 .f32) (a6 a7 : FVec Ideal S128x128 .f32)
    (h : fn (F := Ideal) a0 a1 a2 a3 a4 a5 a6 a7 = fun _ => 1#1) (i : S640000.Idx) :
    (0 : EReal) ≤ sqrtArg a2 a3 a4 a5 i := by
  have h0 := congrFun h ix0
  dsimp only [fn, fn_part1, fn_part2] at h0
  have h1 := (IntOp.andi_eq_one.mp h0).2
  have h2 : cmpf (F := Ideal) .oge (sqrtArg a2 a3 a4 a5) (broadcastInDim S640000 ![] bcast_S_S640000 (constant (F := Ideal) S_ .f32 0x00000000#32)) i = 1#1 :=
    Host.reduce_andi_all _ _ reducesTo_S640000_S_d0 h_S_ ix0 h1 i
  have h3 : Ideal.cmp .oge (sqrtArg a2 a3 a4 a5 i) (Ideal.ofBits .f32 0x00000000#32) = 1#1 := h2
  rw [Ideal.ofBits_zero_f32] at h3
  exact le_of_cmp_oge h3

end Cert.Pre_finite_inputs.Hand

end
-- ==== Proof.EdgeLaw.lean ====
/-
  The one law of the extended reals that joins the two programs.

  One side scales each edge's message by the reciprocal square root of x = d_u · d_v + ε, the other by the
  quotient of one by the square root of x. On the extended reals the two agree exactly where the square root
  is defined, that is for 0 ≤ x:
    * x = +∞: both are 0 (the reciprocal of +∞ is 0);
    * x = 0: both are +∞ (one over zero is +∞);
    * x a positive real: both are the real (√x)⁻¹.
  Below zero the square root has no value, and the two conventions for "no value" part ways (the reciprocal
  square root stays undefined while the quotient by an undefined square root is 0): that is why the
  certificate assumes 0 ≤ x at every edge.
-/
import Idealize.ShloMosaic.PureOps.Ideal
import Idealize.ShloMosaic.PureOps.Ideal.Laws

noncomputable section

namespace Cert.Bipartite

open Idealize.ShloMosaic

/-- For 0 ≤ x the reciprocal square root of x is one divided by the square root of x, infinities and zero included. -/
theorem rsqrt_eq_one_div_sqrt {x : EReal} (hx : 0 ≤ x) : Ideal.rsqrt x = Ideal.div 1 (Ideal.sqrt x) := by
  induction x using EReal.rec with
  | bot => exact absurd hx (by simp)
  | top => simp [Ideal.div]
  | coe r =>
    have hr : 0 ≤ r := by exact_mod_cast hx
    rw [Ideal.rsqrt_coe, Ideal.sqrt_coe, if_neg (not_lt.2 hr), if_neg (not_lt.2 hr)]
    by_cases h0 : r = 0
    · subst h0; simp [Ideal.div]
    · rw [if_neg h0]
      have hs : Real.sqrt r ≠ 0 := (Real.sqrt_pos.2 (lt_of_le_of_ne hr (Ne.symm h0))).ne'
      rw [Ideal.div, if_neg (by exact_mod_cast hs), one_mul, EReal.coe_inv]

/-- The single-precision word of 1.0 denotes the real number one. -/
theorem one_f32 : Ideal.ofBits .f32 0x3F800000#32 = 1 := by
  simp [Ideal.ofBits, Ideal.ieee, -EReal.coe_mul]; norm_num

end Cert.Bipartite

end
-- ==== Proof.Bridge.lean ====
/-
  The two programs compute one function.

  Both gather the same rows and degrees along the same wrapped edge indices, both transpose the same weights, and
  both finish with the same scatter-add and the same leaky rectifier; a change of float format is the identity on the
  extended reals, a matrix product into the zero accumulator is the host's contraction, and both are the plain sum
  over the shared axis. So the two edge-message arrays agree index by index as soon as the two scales agree:

      rsqrt( d(e) + ε )  =  1 / sqrt( d(e) + ε ),

  which holds where 0 ≤ d(e) + ε — the one place the precondition is used. Equal message arrays go through the
  shared scatter-add to equal summed messages, and those through the shared node update to equal results.
-/
import proofs.«143865_j13778255086103_2_alg».proof.Proof.Gen.ReferenceIdeal.Read
import proofs.«143865_j13778255086103_2_alg».proof.Proof.KernelValue
import proofs.«143865_j13778255086103_2_alg».proof.Proof.EdgeLaw
import proofs.«143865_j13778255086103_2_alg».proof.Proof.LibKeepdims

noncomputable section

namespace Cert.Bridge

open Idealize.ShloMosaic Idealize.ShloMosaic.ValueIdx
open Cert.ReferenceIdeal Cert.ReferenceIdeal.Read
open Cert.KernelIdeal.Hand (edgeMsg edgeMsg_ix2 edgeAt nodeUpd nodeUpd_ix2 updAt leaky gatherU gatherV degProd weightT sumU sumV outU outV)
open Cert.Bipartite

variable (x0 : FVec Ideal S100000x128 .f32) (x1 : FVec Ideal S50000x128 .f32) (e2 e3 : IVec S640000 32)
  (d4 : FVec Ideal S100000 .f32) (d5 : FVec Ideal S50000 .f32) (w6 w7 : FVec Ideal S128x128 .f32)

/-! ## The host stages before the edge launch are the reference's -/

theorem gatherU_eq : gatherU x0 e2 = val_main_v6 (F := Ideal) x0 e2 := rfl
theorem gatherV_eq : gatherV x1 e3 = val_main_v13 (F := Ideal) x1 e3 := rfl
theorem weightT6_eq : weightT w6 = val_main_v35 (F := Ideal) w6 := rfl
theorem weightT7_eq : weightT w7 = val_main_v37 (F := Ideal) w7 := rfl
theorem degProd_eq : degProd e2 e3 d4 d5
    = shapeCast S640000x1 (val_main_v29 (F := Ideal) e2 e3 d4 d5) Cert.KernelIdeal.Facts₀.shapeCasts_S640000_S640000x1 := rfl

/-- The degree-product column at (e, 0) is the degree product of edge e. -/
theorem degProd_apply (e : Fin 640000) :
    degProd e2 e3 d4 d5 (ix2 e (0 : Fin 1)) = val_main_v29 (F := Ideal) e2 e3 d4 d5 (ix1 e) := by
  rw [degProd_eq]
  exact Cert.LibKeepdims.shapeCast_a_a1_apply _ _ e 0

/-- Where the square root's argument is not negative, the two scales of edge e agree. -/
theorem scale_eq (hd : ∀ i : S640000.Idx, (0 : EReal) ≤ val_main_v31 (F := Ideal) e2 e3 d4 d5 i) (e : Fin 640000) :
    Ideal.rsqrt (degProd e2 e3 d4 d5 (ix2 e (0 : Fin 1)) + Ideal.ofBits .f32 0x322BCC77#32)
      = Ideal.div (Ideal.ofBits .f32 0x3F800000#32) (Ideal.sqrt (val_main_v31 (F := Ideal) e2 e3 d4 d5 (ix1 e))) := by
  have h0 := hd (ix1 e)
  rw [val_main_v31_apply, val_main_v30_apply, val_main_cst_apply] at h0 ⊢
  rw [degProd_apply, one_f32]
  exact rsqrt_eq_one_div_sqrt h0

/-! ## The edge messages -/

/-- The messages into the first node set. -/
theorem edgeU_eq (hd : ∀ i : S640000.Idx, (0 : EReal) ≤ val_main_v31 (F := Ideal) e2 e3 d4 d5 i) :
    edgeMsg (gatherV x1 e3) (gatherU x0 e2) (gatherV x1 e3) (degProd e2 e3 d4 d5) (weightT w6) (weightT w7)
      = val_main_v42 (F := Ideal) x0 x1 e2 e3 d4 d5 w6 w7 := by
  funext i
  obtain ⟨e, j, rfl⟩ : ∃ (e : Fin 640000) (j : Fin 128), i = ix2 e j := ⟨i 0, i 1, eq_ix2 i⟩
  have el : ∀ k : Fin 128, lidx_main_v36 (ix2 e j) k = ix2 e k := fun k => funext fun a => by
    match a with | ⟨0, _⟩ => rfl | ⟨1, _⟩ => rfl
  have er : ∀ k : Fin 128, ridx_main_v36 (ix2 e j) k = ix2 k j := fun k => funext fun a => by
    match a with | ⟨0, _⟩ => rfl | ⟨1, _⟩ => rfl
  have el' : ∀ k : Fin 128, lidx_main_v38 (ix2 e j) k = ix2 e k := fun k => funext fun a => by
    match a with | ⟨0, _⟩ => rfl | ⟨1, _⟩ => rfl
  have er' : ∀ k : Fin 128, ridx_main_v38 (ix2 e j) k = ix2 k j := fun k => funext fun a => by
    match a with | ⟨0, _⟩ => rfl | ⟨1, _⟩ => rfl
  have hι : idx_main_v40 (idx_main_v41 (ix2 e j)) = ix1 e := funext fun a => by
    match a with | ⟨0, _⟩ => rfl
  rw [edgeMsg_ix2, val_main_v42_apply, val_main_v39_apply, val_main_v36_apply, val_main_v38_apply, val_main_v41_apply,
    val_main_v40_apply, val_main_v34_apply, val_main_v33_apply, val_main_cst_7_apply, val_main_v32_apply, hι]
  simp only [el, er, el', er', val_main_v14_apply]
  unfold edgeAt
  rw [scale_eq e2 e3 d4 d5 hd e, gatherU_eq, gatherV_eq, weightT6_eq, weightT7_eq]
  rfl

/-- The messages into the second node set. -/
theorem edgeV_eq (hd : ∀ i : S640000.Idx, (0 : EReal) ≤ val_main_v31 (F := Ideal) e2 e3 d4 d5 i) :
    edgeMsg (gatherU x0 e2) (gatherU x0 e2) (gatherV x1 e3) (degProd e2 e3 d4 d5) (weightT w6) (weightT w7)
      = val_main_v53 (F := Ideal) x0 x1 e2 e3 d4 d5 w6 w7 := by
  funext i
  obtain ⟨e, j, rfl⟩ : ∃ (e : Fin 640000) (j : Fin 128), i = ix2 e j := ⟨i 0, i 1, eq_ix2 i⟩
  have el : ∀ k : Fin 128, lidx_main_v47 (ix2 e j) k = ix2 e k := fun k => funext fun a => by
    match a with | ⟨0, _⟩ => rfl | ⟨1, _⟩ => rfl
  have er : ∀ k : Fin 128, ridx_main_v47 (ix2 e j) k = ix2 k j := fun k => funext fun a => by
    match a with | ⟨0, _⟩ => rfl | ⟨1, _⟩ => rfl
  have el' : ∀ k : Fin 128, lidx_main_v49 (ix2 e j) k = ix2 e k := fun k => funext fun a => by
    match a with | ⟨0, _⟩ => rfl | ⟨1, _⟩ => rfl
  have er' : ∀ k : Fin 128, ridx_main_v49 (ix2 e j) k = ix2 k j := fun k => funext fun a => by
    match a with | ⟨0, _⟩ => rfl | ⟨1, _⟩ => rfl
  have hι : idx_main_v51 (idx_main_v52 (ix2 e j)) = ix1 e := funext fun a => by
    match a with | ⟨0, _⟩ => rfl
  rw [edgeMsg_ix2, val_main_v53_apply, val_main_v50_apply, val_main_v47_apply, val_main_v49_apply, val_main_v52_apply,
    val_main_v51_apply, val_main_v34_apply, val_main_v33_apply, val_main_cst_7_apply, val_main_v32_apply, hι]
  simp only [el, er, el', er', val_main_v14_apply]
  unfold edgeAt
  rw [scale_eq e2 e3 d4 d5 hd e, gatherU_eq, gatherV_eq, weightT6_eq, weightT7_eq]
  rfl

/-! ## The summed messages: one scatter-add on both sides -/

theorem sumU_eq (hd : ∀ i : S640000.Idx, (0 : EReal) ≤ val_main_v31 (F := Ideal) e2 e3 d4 d5 i) :
    sumU e2 (edgeMsg (gatherV x1 e3) (gatherU x0 e2) (gatherV x1 e3) (degProd e2 e3 d4 d5) (weightT w6) (weightT w7))
      = val_main_v45 (F := Ideal) x0 x1 e2 e3 d4 d5 w6 w7 := by
  rw [edgeU_eq x0 x1 e2 e3 d4 d5 w6 w7 hd]
  rfl

theorem sumV_eq (hd : ∀ i : S640000.Idx, (0 : EReal) ≤ val_main_v31 (F := Ideal) e2 e3 d4 d5 i) :
    sumV e3 (edgeMsg (gatherU x0 e2) (gatherU x0 e2) (gatherV x1 e3) (degProd e2 e3 d4 d5) (weightT w6) (weightT w7))
      = val_main_v56 (F := Ideal) x0 x1 e2 e3 d4 d5 w6 w7 := by
  rw [edgeV_eq x0 x1 e2 e3 d4 d5 w6 w7 hd]
  rfl

/-! ## The node updates -/

/-- The first result. -/
theorem outU_eq (hd : ∀ i : S640000.Idx, (0 : EReal) ≤ val_main_v31 (F := Ideal) e2 e3 d4 d5 i) :
    outU x0 x1 e2 e3 d4 d5 w6 w7 = val_main_v64 (F := Ideal) x0 x1 e2 e3 d4 d5 w6 w7 := by
  unfold outU
  rw [sumU_eq x0 x1 e2 e3 d4 d5 w6 w7 hd]
  funext i
  obtain ⟨r, j, rfl⟩ : ∃ (r : Fin 100000) (j : Fin 128), i = ix2 r j := ⟨i 0, i 1, eq_ix2 i⟩
  have el : ∀ k : Fin 128, lidx_main_v58 (ix2 r j) k = ix2 r k := fun k => funext fun a => by
    match a with | ⟨0, _⟩ => rfl | ⟨1, _⟩ => rfl
  have er : ∀ k : Fin 128, ridx_main_v58 (ix2 r j) k = ix2 k j := fun k => funext fun a => by
    match a with | ⟨0, _⟩ => rfl | ⟨1, _⟩ => rfl
  rw [nodeUpd_ix2, val_main_v64_apply, val_main_v61_apply, val_main_v63_apply, val_main_v59_apply, val_main_v58_apply,
    val_main_v60_apply, val_main_v62_apply, val_main_cst_10_apply, val_main_cst_11_apply]
  simp only [el, er]
  rfl

/-- The second result. -/
theorem outV_eq (hd : ∀ i : S640000.Idx, (0 : EReal) ≤ val_main_v31 (F := Ideal) e2 e3 d4 d5 i) :
    outV x0 x1 e2 e3 d4 d5 w6 w7 = val_main_v72 (F := Ideal) x0 x1 e2 e3 d4 d5 w6 w7 := by
  unfold outV
  rw [sumV_eq x0 x1 e2 e3 d4 d5 w6 w7 hd]
  funext i
  obtain ⟨r, j, rfl⟩ : ∃ (r : Fin 50000) (j : Fin 128), i = ix2 r j := ⟨i 0, i 1, eq_ix2 i⟩
  have el : ∀ k : Fin 128, lidx_main_v66 (ix2 r j) k = ix2 r k := fun k => funext fun a => by
    match a with | ⟨0, _⟩ => rfl | ⟨1, _⟩ => rfl
  have er : ∀ k : Fin 128, ridx_main_v66 (ix2 r j) k = ix2 k j := fun k => funext fun a => by
    match a with | ⟨0, _⟩ => rfl | ⟨1, _⟩ => rfl
  rw [nodeUpd_ix2, val_main_v72_apply, val_main_v69_apply, val_main_v71_apply, val_main_v67_apply, val_main_v66_apply,
    val_main_v68_apply, val_main_v70_apply, val_main_cst_12_apply, val_main_cst_13_apply]
  simp only [el, er]
  rfl

end Cert.Bridge

end
-- ==== Proof.lean ====
/-
  A bipartite graph convolution: two node tables U (100000 × 128) and V (50000 × 128), 640000 edges given by an
  index into each table, a degree per node, and two 128 × 128 weight matrices W1, W2. Per edge e = (u, v) and lane j

      into U:  m_uv(e,j) = ( ∑ₖ V[v,k] · W1[j,k] + ∑ₖ (U[u,k] · V[v,k]) · W2[j,k] ) · s(e),
      into V:  m_vu(e,j) = ( ∑ₖ U[u,k] · W1[j,k] + ∑ₖ (U[u,k] · V[v,k]) · W2[j,k] ) · s(e),

  with the scale s(e) of the edge's degree product d(e) = d_u[u] · d_v[v]; the messages are summed into their node rows,
  and each table is replaced by the leaky rectifier of (table · W1ᵀ + summed messages).

  The kernel computes the edge messages in one launch over 160 blocks of 4000 edges and the two updates in two
  launches over blocks of 5000 nodes, with the gathers, the scatter-adds and the transposes on the host; the reference
  is the same computation as whole-array host operations. On the extended reals the only place the two differ is the
  scale: the kernel takes s(e) = rsqrt(d(e) + ε), the reference s(e) = 1 / sqrt(d(e) + ε). These agree exactly where
  the square root is defined, 0 ≤ d(e) + ε, which the precondition states; below zero the reference's square root has
  no value and the two conventions for that differ. No other property of the inputs is used.

  The modules: EdgeLaw (the law of the two scales), Body0 / Body1 (what each launch's body stores, at an element),
  Spec (the two stages as whole-array functions), Blocks0 / Blocks1 / Blocks2 (each launch's result array is that
  function of the arrays it finds), KernelRun and KernelValue (the kernel's run, its results as functions of the
  arguments), PreDomain (what the precondition gives), Bridge (those functions are the reference's stages).
-/
import proofs.«143865_j13778255086103_2_alg».proof.Defs
import proofs.«143865_j13778255086103_2_alg».proof.Proof.Gen.Kernel
import proofs.«143865_j13778255086103_2_alg».proof.Proof.Gen.Kernel.Skeleton
import proofs.«143865_j13778255086103_2_alg».proof.Proof.Gen.Kernel.Launch
import proofs.«143865_j13778255086103_2_alg».proof.Proof.Gen.Kernel.Points
import proofs.«143865_j13778255086103_2_alg».proof.Proof.Gen.Kernel.Frame
import proofs.«143865_j13778255086103_2_alg».proof.Proof.Gen.KernelIdeal
import proofs.«143865_j13778255086103_2_alg».proof.Proof.Gen.KernelIdeal.Skeleton
import proofs.«143865_j13778255086103_2_alg».proof.Proof.Gen.KernelIdeal.Launch
import proofs.«143865_j13778255086103_2_alg».proof.Proof.Gen.KernelIdeal.Points
import proofs.«143865_j13778255086103_2_alg».proof.Proof.Gen.KernelIdeal.Frame
import proofs.«143865_j13778255086103_2_alg».proof.Proof.Gen.ReferenceIdeal
import proofs.«143865_j13778255086103_2_alg».proof.Proof.Gen.ReferenceIdeal.Run
import proofs.«143865_j13778255086103_2_alg».proof.Proof.Gen.ReferenceIdeal.Read
import proofs.«143865_j13778255086103_2_alg».proof.Proof.Gen.Pre_finite_inputs
import proofs.«143865_j13778255086103_2_alg».proof.Proof.KernelValue
import proofs.«143865_j13778255086103_2_alg».proof.Proof.PreDomain
import proofs.«143865_j13778255086103_2_alg».proof.Proof.Bridge
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The square root's argument as the precondition spells it is the reference's. -/
theorem sqrtArg_eq (e2 e3 : IVec Cert.ReferenceIdeal.S640000 32) (d4 : FVec Ideal Cert.ReferenceIdeal.S100000 .f32)
    (d5 : FVec Ideal Cert.ReferenceIdeal.S50000 .f32) :
    Cert.Pre_finite_inputs.Hand.sqrtArg e2 e3 d4 d5 = Cert.ReferenceIdeal.Read.val_main_v31 (F := Ideal) e2 e3 d4 d5 := rfl

/-- On memories that agree on the arguments and satisfy the precondition, the two idealized programs end with equal
    results: the kernel's at its two result functions of the arguments, the reference's at its last two stages, which
    are those functions wherever the square root's argument is not negative. -/
theorem algebraic : Cert.algebraic_KernelIdeal_ReferenceIdeal := by
  intro m ρ m' ρ' hpre hagree
  refine ⟨fun c => Cert.KernelIdeal.Hand.outU (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c) (Cert.KernelIdeal.Hand.a7 m c),
    fun c => Cert.KernelIdeal.Hand.outV (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c) (Cert.KernelIdeal.Hand.a7 m c),
    Cert.KernelIdeal.Hand.run m ρ, ?_⟩
  refine (θ_run Cert.ReferenceIdeal.defs _ _).mono (fun _ h c => ?_) (Cert.ReferenceIdeal.Value.run (F := Ideal) m' ρ')
  obtain ⟨h64, h72, hargs⟩ := h c
  obtain ⟨g0, g1, g2, g3, g4, g5, g6, g7⟩ := hagree c
  have hd : ∀ i : Cert.ReferenceIdeal.S640000.Idx, (0 : EReal) ≤ Cert.ReferenceIdeal.Read.val_main_v31 (F := Ideal)
      (Cert.KernelIdeal.Hand.a2 m c) (Cert.KernelIdeal.Hand.a3 m c) (Cert.KernelIdeal.Hand.a4 m c) (Cert.KernelIdeal.Hand.a5 m c) i := fun i => by
    rw [← sqrtArg_eq]
    exact Cert.Pre_finite_inputs.Hand.sqrtArg_nonneg _ _ _ _ _ _ _ _ (hpre c) i
  refine ⟨h64.trans ?_, h72.trans ?_, hargs⟩
  · rw [Cert.ReferenceIdeal.Read.val_main_v64_eq, g0, g1, g2, g3, g4, g5, g6, g7]
    exact (Cert.Bridge.outU_eq _ _ _ _ _ _ _ _ hd).symm
  · rw [Cert.ReferenceIdeal.Read.val_main_v72_eq, g0, g1, g2, g3, g4, g5, g6, g7]
    exact (Cert.Bridge.outV_eq _ _ _ _ _ _ _ _ hd).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
